-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S64x2048x1024 : Shape := ⟨3, ![64, 2048, 1024]⟩
abbrev S64x2048 : Shape := ⟨2, ![64, 2048]⟩
abbrev S256x8 : Shape := ⟨2, ![256, 8]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S64x2048x1024 : S_.BroadcastsInDim S64x2048x1024 (![] : Fin 0 → Fin S64x2048x1024.rank)
  reducesTo_S64x2048x1024_S_d0_1_2 : S64x2048x1024.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_v13 : IVec S_ 1) (main_v16 : IVec S256x8 1) : IVec S_ 1 :=
  let main_c_5 : IVec S_ 1 := constantI S_ 1 1#1
  let main_v17 : IVec S_ 1 := (fun x v => Host.reduce IntOp.andi x v reducesTo_S256x8_S_d0_1 h_S_) main_v16 main_c_5
  let main_v18 : IVec S_ 1 := andi main_v13 main_v17
  main_v18

def fn {F : FTy → Type} [FloatOps F] (main_arg0 : FVec F S256x1024 .f32) (main_arg1 : FVec F S64x2048x1024 .f32) (main_arg2 : FVec F S64x2048 .f32) (main_arg3 : FVec F S256x8 .f32) (main_arg4 : IVec S256x8 32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S64x2048x1024 .f32 := Host.absf main_arg1
  let main_cst_0 : FVec F S_ .f32 := constant S_ .f32 0x7F800000#32
  let main_v5 : FVec F S64x2048x1024 .f32 := broadcastInDim S64x2048x1024 ![] bcast_S_S64x2048x1024 main_cst_0
  let main_v6 : IVec S64x2048x1024 1 := cmpf .olt main_v4 main_v5
  let main_c_1 : IVec S_ 1 := constantI S_ 1 1#1
  let main_v7 : IVec S_ 1 := (fun x v => Host.reduce IntOp.andi x v reducesTo_S64x2048x1024_S_d0_1_2 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S256x8 .f32 := Host.absf main_arg3
  let main_cst_4 : FVec F S_ .f32 := constant S_ .f32 0x7F800000#32
  let main_v15 : FVec F S256x8 .f32 := broadcastInDim S256x8 ![] bcast_S_S256x8 main_cst_4
  let main_v16 : IVec S256x8 1 := cmpf .olt main_v14 main_v15
  fn_part1 (F := F) main_v13 main_v16
-- ==== Kernel.lean ====
abbrev S256x1024 : Shape := ⟨2, ![256, 1024]⟩
abbrev S64x2048x1024 : Shape := ⟨3, ![64, 2048, 1024]⟩
abbrev S64x2048 : Shape := ⟨2, ![64, 2048]⟩
abbrev S256x8 : Shape := ⟨2, ![256, 8]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩
abbrev S64x32x1024 : Shape := ⟨3, ![64, 32, 1024]⟩
abbrev S64x32x1 : Shape := ⟨3, ![64, 32, 1]⟩
abbrev S64x1x2048 : Shape := ⟨3, ![64, 1, 2048]⟩
abbrev S64x32x2048 : Shape := ⟨3, ![64, 32, 2048]⟩
abbrev S1x32x1024 : Shape := ⟨3, ![1, 32, 1024]⟩
abbrev S1x2048x1024 : Shape := ⟨3, ![1, 2048, 1024]⟩
abbrev S1x1x2048 : Shape := ⟨3, ![1, 1, 2048]⟩
abbrev S1x32x1 : Shape := ⟨3, ![1, 32, 1]⟩
abbrev S1x32x2048 : Shape := ⟨3, ![1, 32, 2048]⟩
abbrev S32x1024 : Shape := ⟨2, ![32, 1024]⟩
abbrev S32x1 : Shape := ⟨2, ![32, 1]⟩
abbrev S32x2048 : Shape := ⟨2, ![32, 2048]⟩
abbrev S1x2048 : Shape := ⟨2, ![1, 2048]⟩
abbrev S2048x2048 : Shape := ⟨2, ![2048, 2048]⟩
abbrev S256x8x2048 : Shape := ⟨3, ![256, 8, 2048]⟩

abbrev nBuf : Space → Nat
  | .hbm => 63
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S64x2048x1024, .f32⟩
  | .hbm, ⟨2, _⟩ => ⟨S64x2048, .f32⟩
  | .hbm, ⟨3, _⟩ => ⟨S256x8, .f32⟩
  | .hbm, ⟨4, _⟩ => ⟨S256x8, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1024, .f32⟩
  | .hbm, ⟨36, _⟩ => ⟨S64x32x1024, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .f32⟩
  | .hbm, ⟨47, _⟩ => ⟨S64x32x1, .f32⟩
  | .hbm, ⟨48, _⟩ => ⟨S64x1x2048, .f32⟩
  | .hbm, ⟨49, _⟩ => ⟨S64x32x2048, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S2048x2048, .f32⟩
  | .hbm, ⟨62, _⟩ => ⟨S256x8x2048, .f32⟩
  | .local _ .vmem, ⟨0, _⟩ => ⟨S1x32x1024, .f32⟩
  | .local _ .vmem, ⟨1, _⟩ => ⟨S1x32x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x32x1, .f32⟩
  | .local _ .vmem, ⟨7, _⟩ => ⟨S1x32x1, .f32⟩
  | .local _ .vmem, ⟨8, _⟩ => ⟨S1x32x2048, .f32⟩
  | .local _ .vmem, ⟨9, _⟩ => ⟨S1x32x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x8_S2048 : S256x8.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  shapeCasts_S2048x1024_S64x32x1024 : S2048x1024.ShapeCasts S64x32x1024
  shapeCasts_S2048_S64x32x1 : S2048.ShapeCasts S64x32x1
  shapeCasts_S64x2048_S64x1x2048 : S64x2048.ShapeCasts S64x1x2048
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S1x32x1024 : S1x32x1024.ShapeCasts S1x32x1024
  shapeCasts_S1x32x1024_S32x1024 : S1x32x1024.ShapeCasts S32x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S2048 : S1x1x2048.ShapeCasts S2048
  inb_S1x32x1_S1x32x1_0_0_0 : ∀ a, (![0, 0, 0] : Fin 3 → Nat) a + S1x32x1.size a ≤ S1x32x1.size a
  h_S1x32x1 : 0 < S1x32x1.numel
  shapeCasts_S1x32x1_S1x32x1 : S1x32x1.ShapeCasts S1x32x1
  shapeCasts_S1x32x1_S32x1 : S1x32x1.ShapeCasts S32x1
  shapeCasts_S2048_S1x2048 : S2048.ShapeCasts S1x2048
  broadcasts_S1x2048_S32x2048 : S1x2048.Broadcasts S32x2048
  broadcasts_S32x1_S32x2048 : S32x1.Broadcasts S32x2048
  shapeCasts_S32x2048_S1x32x2048 : S32x2048.ShapeCasts S1x32x2048
  inb_S1x32x2048_S1x32x2048_0_0_0 : ∀ a, (![0, 0, 0] : Fin 3 → Nat) a + S1x32x2048.size a ≤ S1x32x2048.size a
  h_S1x32x2048 : 0 < S1x32x2048.numel
  shapeCasts_S64x32x2048_S2048x2048 : S64x32x2048.ShapeCasts S2048x2048
  bcast_S_S2048x2048 : S_.BroadcastsInDim S2048x2048 (![] : Fin 0 → Fin S2048x2048.rank)
  shapeCasts_S2048x2048_S256x8x2048 : S2048x2048.ShapeCasts S256x8x2048
  gather_S256x1024_S2048x1_S2048x1024_1_0_n_n_0_1_11024_wf : GatherDims.WF S256x1024 S2048x1 S2048x1024 [1] [0] [] [0] [] 1 ![1, 1024]
  gather_S2048_S2048x1_S2048_n_0_n_n_0_1_1_wf : GatherDims.WF S2048 S2048x1 S2048 [] [0] [] [0] [] 1 ![1]
  dot_S32x1024_S2048x1024_S32x2048_1_1_0_0_n_n_wf : DotDims.WF S32x1024 S2048x1024 S32x2048 [1] [1] [0] [0] [] []
  scatter_S2048x2048_S2048x1_S2048x2048_1_0_0_1_wf : ScatterDims.WF S2048x2048 S2048x1 S2048x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S64x32x1024.size a
  hwx0_0 : ∀ i : grid0.Coords, EltTy.bits .f32 = 32 ∨ (Rect.block (s := S64x32x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S64x2048x1024.size a
  hwx0_1 : ∀ i : grid0.Coords, EltTy.bits .f32 = 32 ∨ (Rect.block (s := S64x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S64x1x2048.size a
  hwx0_2 : ∀ i : grid0.Coords, EltTy.bits .f32 = 32 ∨ (Rect.block (s := S64x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S64x32x1.size a
  hwx0_3 : ∀ i : grid0.Coords, EltTy.bits .f32 = 32 ∨ (Rect.block (s := S64x32x1) S1x32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x2048.size a ≤ S64x32x2048.size a
  hwx0_4 : ∀ i : grid0.Coords, EltTy.bits .f32 = 32 ∨ (Rect.block (s := S64x32x2048) S1x32x2048.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S256x1024_S2048x1_S2048x1024_1_0_n_n_0_1_11024 : GatherDims S256x1024 S2048x1 S2048x1024 where
  offsetDims := [1]
  collapsedSliceDims := [0]
  operandBatchingDims := []
  startIndicesBatchingDims := []
  startIndexMap := [0]
  indexVectorDim := 1
  sliceSizes := ![1, 1024]
  wf := gather_S256x1024_S2048x1_S2048x1024_1_0_n_n_0_1_11024_wf
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf
def scatter_S2048x2048_S2048x1_S2048x2048_1_0_0_1 : ScatterDims S2048x2048 S2048x1 S2048x2048 where
  updateWindowDims := [1]
  insertedWindowDims := [0]
  scatterDimsToOperandDims := [0]
  indexVectorDim := 1
  wf := scatter_S2048x2048_S2048x1_S2048x2048_1_0_0_1_wf

abbrev win0_0 : Pipeline.Window sig grid0 :=
  Pipeline.Window.ofSpec (Memref.whole main_v10) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x1024 : Shape := ⟨2, ![256, 1024]⟩
abbrev S64x2048x1024 : Shape := ⟨3, ![64, 2048, 1024]⟩
abbrev S64x2048 : Shape := ⟨2, ![64, 2048]⟩
abbrev S256x8 : Shape := ⟨2, ![256, 8]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩
abbrev S64x32x1024 : Shape := ⟨3, ![64, 32, 1024]⟩
abbrev S64x32x2048 : Shape := ⟨3, ![64, 32, 2048]⟩
abbrev S64x1x2048 : Shape := ⟨3, ![64, 1, 2048]⟩
abbrev S2048x2048 : Shape := ⟨2, ![2048, 2048]⟩
abbrev S256x8x2048 : Shape := ⟨3, ![256, 8, 2048]⟩

abbrev nBuf : Space → Nat
  | .hbm => 67
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S64x2048x1024, .f32⟩
  | .hbm, ⟨2, _⟩ => ⟨S64x2048, .f32⟩
  | .hbm, ⟨3, _⟩ => ⟨S256x8, .f32⟩
  | .hbm, ⟨4, _⟩ => ⟨S256x8, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1024, .f32⟩
  | .hbm, ⟨36, _⟩ => ⟨S64x32x1024, .f32⟩
  | .hbm, ⟨37, _⟩ => ⟨S64x32x2048, .f32⟩
  | .hbm, ⟨38, _⟩ => ⟨S64x1x2048, .f32⟩
  | .hbm, ⟨39, _⟩ => ⟨S64x32x2048, .f32⟩
  | .hbm, ⟨40, _⟩ => ⟨S64x32x2048, .f32⟩
  | .hbm, ⟨41, _⟩ => ⟨S2048, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S2048, .f32⟩
  | .hbm, ⟨51, _⟩ => ⟨S2048x2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048x2048, .f32⟩
  | .hbm, ⟨66, _⟩ => ⟨S256x8x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩

abbrev nD : Nat := 1
abbrev τ : Topo := Topo.v7x

variable {F : FTy → Type} [FloatOps F]

class Facts₀ : Prop where
  shapeCasts_S256x8_S2048 : S256x8.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  shapeCasts_S2048x1024_S64x32x1024 : S2048x1024.ShapeCasts S64x32x1024
  bcast_S64x2048_S64x1x2048_0_2 : S64x2048.BroadcastsInDim S64x1x2048 (![0, 2] : Fin 2 → Fin S64x1x2048.rank)
  bcast_S64x1x2048_S64x32x2048_0_1_2 : S64x1x2048.BroadcastsInDim S64x32x2048 (![0, 1, 2] : Fin 3 → Fin S64x32x2048.rank)
  shapeCasts_S64x32x2048_S2048x2048 : S64x32x2048.ShapeCasts S2048x2048
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  shapeCasts_S2048x2048_S256x8x2048 : S2048x2048.ShapeCasts S256x8x2048
  gather_S256x1024_S2048x1_S2048x1024_1_0_n_n_0_1_11024_wf : GatherDims.WF S256x1024 S2048x1 S2048x1024 [1] [0] [] [0] [] 1 ![1, 1024]
  dot_S64x32x1024_S64x2048x1024_S64x32x2048_2_2_1_1_0_0_wf : DotDims.WF S64x32x1024 S64x2048x1024 S64x32x2048 [2] [2] [1] [1] [0] [0]
  gather_S2048_S2048x1_S2048_n_0_n_n_0_1_1_wf : GatherDims.WF S2048 S2048x1 S2048 [] [0] [] [0] [] 1 ![1]
  scatter_S2048x2048_S2048x1_S2048x2048_1_0_0_1_wf : ScatterDims.WF S2048x2048 S2048x1 S2048x2048 [1] [0] [0] 1

variable [Facts₀]

def comparator_i32_i32_d0 : BitVec 32 × BitVec 32 → BitVec 32 × BitVec 32 → BitVec 1 :=
  fun l r =>
    let v2 := IntOp.cmpi .slt l.1 r.1
    v2
def gather_S256x1024_S2048x1_S2048x1024_1_0_n_n_0_1_11024 : GatherDims S256x1024 S2048x1 S2048x1024 where
  offsetDims := [1]
  collapsedSliceDims := [0]
  operandBatchingDims := []
  startIndicesBatchingDims := []
  startIndexMap := [0]
  indexVectorDim := 1
  sliceSizes := ![1, 1024]
  wf := gather_S256x1024_S2048x1_S2048x1024_1_0_n_n_0_1_11024_wf
def dot_S64x32x1024_S64x2048x1024_S64x32x2048_2_2_1_1_0_0 : DotDims S64x32x1024 S64x2048x1024 S64x32x2048 where
  lhsContracting := [2]
  rhsContracting := [2]
  lhsNonContracting := [1]
  rhsNonContracting := [1]
  lhsBatch := [0]
  rhsBatch := [0]
  wf := dot_S64x32x1024_S64x2048x1024_S64x32x2048_2_2_1_1_0_0_wf
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def scatter_S2048x2048_S2048x1_S2048x2048_1_0_0_1 : ScatterDims S2048x2048 S2048x1 S2048x2048 where
  updateWindowDims := [1]
  insertedWindowDims := [0]
  scatterDimsToOperandDims := [0]
  indexVectorDim := 1
  wf := scatter_S2048x2048_S2048x1_S2048x2048_1_0_0_1_wf

class Facts : Prop extends Facts₀ where

variable [Facts]
-- ==== Proof.Spec.lean ====
/-
  The routed grouped matrix product, as mathematics over literal shapes.

  256 tokens of width 1024 are each routed to 8 of 64 experts; the 2048 (token, choice) slots are put in the stable
  order of their expert ids, so that with balanced routing slot `s` of the sorted order belongs to expert `s / 32`.
  Sorted slot `s`, output column `n`, holds

      (∑ k, rows s k · B (s / 32) n k  +  bias (s / 32) n) · weight s

  where `rows` are the token rows gathered in sorted order and `weight` the routing weights gathered in sorted order;
  the slots are then scattered back to token order.  Both programs compute the sorted order, the two gathers and
  the scatter by the same host operations of the expert ids; they differ in how the product is laid out: one
  batched product over all experts followed by a flattening to [2048, 2048], against one [32, 1024] × [2048, 1024]ᵀ
  product per expert over the [64, 32, ·] arrangement.  This module names the shared host functions (`order`,
  `token`, `wrap`, `rowsSorted`, `weightSorted`, `scatterBack`), states the per-expert result `groupOut` and the
  batched one `flatOut`, and proves them equal index by index (`flat_groupOut`).  No law of arithmetic is used beyond
  re-indexing the contraction: the two sides are the same sums, products and additions of extended reals in the
  same order.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

noncomputable section

namespace Cert.GroupedGemm

open Idealize.ShloMosaic Idealize.ShloMosaic.ValueIdx
open scoped BigOperators

/-! ## Shapes -/

abbrev S_ : Shape := ⟨0, ![]⟩
abbrev S2048 : Shape := ⟨1, ![2048]⟩
abbrev S256x8 : Shape := ⟨2, ![256, 8]⟩
abbrev S256x1024 : Shape := ⟨2, ![256, 1024]⟩
abbrev S64x2048 : Shape := ⟨2, ![64, 2048]⟩
abbrev S2048x1 : Shape := ⟨2, ![2048, 1]⟩
abbrev S2048x1024 : Shape := ⟨2, ![2048, 1024]⟩
abbrev S2048x2048 : Shape := ⟨2, ![2048, 2048]⟩
abbrev S64x2048x1024 : Shape := ⟨3, ![64, 2048, 1024]⟩
abbrev S64x32x1024 : Shape := ⟨3, ![64, 32, 1024]⟩
abbrev S64x32x2048 : Shape := ⟨3, ![64, 32, 2048]⟩
abbrev S64x1x2048 : Shape := ⟨3, ![64, 1, 2048]⟩
abbrev S64x32x1 : Shape := ⟨3, ![64, 32, 1]⟩
abbrev S256x8x2048 : Shape := ⟨3, ![256, 8, 2048]⟩

/-! ## The shape relations the operations take -/

theorem flat_ids : S256x8.ShapeCasts S2048 := by decide
theorem splat : S_.BroadcastsInDim S2048 (![] : Fin 0 → Fin S2048.rank) := by decide
theorem column : S2048.BroadcastsInDim S2048x1 (![0] : Fin 1 → Fin S2048x1.rank) := by decide
theorem group_rows : S2048x1024.ShapeCasts S64x32x1024 := by decide
theorem bias_unit : S64x2048.BroadcastsInDim S64x1x2048 (![0, 2] : Fin 2 → Fin S64x1x2048.rank) := by decide
theorem bias_rows : S64x1x2048.BroadcastsInDim S64x32x2048 (![0, 1, 2] : Fin 3 → Fin S64x32x2048.rank) := by decide
theorem flat_slots : S64x32x2048.ShapeCasts S2048x2048 := by decide
theorem weight_cols : S2048x1.BroadcastsInDim S2048x2048 (![0, 1] : Fin 2 → Fin S2048x2048.rank) := by decide
theorem splat2 : S_.BroadcastsInDim S2048x2048 (![] : Fin 0 → Fin S2048x2048.rank) := by decide
theorem per_token : S2048x2048.ShapeCasts S256x8x2048 := by decide
theorem group_weight : S2048.ShapeCasts S64x32x1 := by decide
theorem bias_block : S64x2048.ShapeCasts S64x1x2048 := by decide

/-- Row gather: row `i` of the result is the row of the operand the index names. -/
def gatherRows : GatherDims S256x1024 S2048x1 S2048x1024 where
  offsetDims := [1]
  collapsedSliceDims := [0]
  operandBatchingDims := []
  startIndicesBatchingDims := []
  startIndexMap := [0]
  indexVectorDim := 1
  sliceSizes := ![1, 1024]
  wf := by decide
/-- Element gather of a flat array. -/
def gatherFlat : GatherDims S2048 S2048x1 S2048 where
  offsetDims := []
  collapsedSliceDims := [0]
  operandBatchingDims := []
  startIndicesBatchingDims := []
  startIndexMap := [0]
  indexVectorDim := 1
  sliceSizes := ![1]
  wf := by decide
/-- Row scatter into a [2048, 2048] array. -/
def scatterRows : ScatterDims S2048x2048 S2048x1 S2048x2048 where
  updateWindowDims := [1]
  insertedWindowDims := [0]
  scatterDimsToOperandDims := [0]
  indexVectorDim := 1
  wf := by decide
/-- The batched product: expert axis batched, the width-1024 axis of both operands contracted. -/
def dotBatched : DotDims S64x32x1024 S64x2048x1024 S64x32x2048 where
  lhsContracting := [2]
  rhsContracting := [2]
  lhsNonContracting := [1]
  rhsNonContracting := [1]
  lhsBatch := [0]
  rhsBatch := [0]
  wf := by decide

/-! ## The host functions of the expert ids both programs share -/

/-- The sort's comparison: signed less-than on the keys. -/
def keyLess : BitVec 32 × BitVec 32 → BitVec 32 × BitVec 32 → BitVec 1 := fun l r => IntOp.cmpi .slt l.1 r.1

/-- The sorted order of the 2048 slots: the positions carried along by the stable sort of the flattened expert ids. -/
def order (ids : IVec S256x8 32) : IVec S2048 32 :=
  (Host.sort2 S2048 0 keyLess (shapeCast S2048 ids flat_ids) (iotaInDim S2048 32 0)).2

/-- The divisor 8 (the number of choices per token), as the floor division converts it. -/
def eight : IVec S_ 32 := id (constantI S_ 32 8#32)

/-- The truncating quotient of the positions by 8. -/
def quot8 (o : IVec S2048 32) : IVec S2048 32 := Host.divsi o (broadcastInDim S2048 ![] splat eight)

/-- The token of each sorted slot: its position floor-divided by 8 (the truncating quotient, less one where the signs
    differ and the remainder is not zero). -/
def token (o : IVec S2048 32) : IVec S2048 32 :=
  select (andi (cmpi .ne (signi o) (broadcastInDim S2048 ![] splat (signi eight)))
      (cmpi .ne (Host.remsi o (broadcastInDim S2048 ![] splat eight)) (broadcastInDim S2048 ![] splat (constantI S_ 32 0#32))))
    (subi (quot8 o) (broadcastInDim S2048 ![] splat (constantI S_ 32 1#32))) (quot8 o)

/-- An index array made a column of start indices, a negative index first wrapped by the extent `n`. -/
def wrap (n : BitVec 32) (x : IVec S2048 32) : IVec S2048x1 32 :=
  broadcastInDim S2048x1 ![0] column
    (select (cmpi .slt x (broadcastInDim S2048 ![] splat (constantI S_ 32 0#32))) (addi x (broadcastInDim S2048 ![] splat (constantI S_ 32 n))) x)

/-- The token rows in sorted order, grouped by expert. -/
def rowsSorted (A : FVec Ideal S256x1024 .f32) (ids : IVec S256x8 32) : FVec Ideal S64x32x1024 .f32 :=
  shapeCast S64x32x1024 (Host.gather gatherRows A (wrap 256#32 (token (order ids)))) group_rows

/-- The routing weights in sorted order. -/
def weightSorted (W : FVec Ideal S256x8 .f32) (ids : IVec S256x8 32) : FVec Ideal S2048 .f32 :=
  Host.gather gatherFlat (shapeCast S2048 W flat_ids) (wrap 2048#32 (order ids))

/-- Sorted slots scattered back to token order over zeros, then split per token. -/
def scatterBack (o : IVec S2048 32) (y : FVec Ideal S2048x2048 .f32) : FVec Ideal S256x8x2048 .f32 :=
  shapeCast S256x8x2048
    (Host.scatter scatterRows (fun _ b => b) (broadcastInDim S2048x2048 ![] splat2 (constant (F := Ideal) S_ .f32 0x00000000#32)) (wrap 2048#32 o) y)
    per_token

/-! ## The two layouts of the product -/

/-- The batched layout: one product over all experts, the bias broadcast over each expert's 32 slots, flattened to
    [2048, 2048] and scaled row by row. -/
def flatOut (rows : FVec Ideal S64x32x1024 .f32) (B : FVec Ideal S64x2048x1024 .f32) (bias : FVec Ideal S64x2048 .f32)
    (wt : FVec Ideal S2048 .f32) : FVec Ideal S2048x2048 .f32 :=
  mulf (shapeCast S2048x2048
      (addf (Host.dotGeneral dotBatched none rows B)
        (broadcastInDim S64x32x2048 ![0, 1, 2] bias_rows (broadcastInDim S64x1x2048 ![0, 2] bias_unit bias))) flat_slots)
    (broadcastInDim S2048x2048 ![0, 1] weight_cols (broadcastInDim S2048x1 ![0] column wt))

/-- One entry of the per-expert layout: expert `e`, slot `c` of its 32, column `n`. -/
def groupOutAt (rows : S64x32x1024.Idx → EReal) (B : S64x2048x1024.Idx → EReal) (biasr : S64x1x2048.Idx → EReal)
    (wr : S64x32x1.Idx → EReal) (e : Fin 64) (c : Fin 32) (n : Fin 2048) : EReal :=
  (∑ k : Fin 1024, rows (ix3 e c k) * B (ix3 e n k) + biasr (ix3 e (0 : Fin 1) n)) * wr (ix3 e c (0 : Fin 1))

/-- The per-expert layout as an array over [64, 32, 2048]. -/
def groupOut (rows : S64x32x1024.Idx → EReal) (B : S64x2048x1024.Idx → EReal) (biasr : S64x1x2048.Idx → EReal)
    (wr : S64x32x1.Idx → EReal) : S64x32x2048.Idx → EReal :=
  fun i => groupOutAt rows B biasr wr (i 0) (i 1) (i 2)

end Cert.GroupedGemm

end
-- ==== Proof.KernelHost.lean ====
/-
  What the host operations before the kernel compute.

  Before the kernel: the sorted order of the slots, the token rows gathered in that order and grouped by expert, the
  routing weights gathered in that order and regrouped as [64, 32, 1], the bias regrouped as one [1, 2048] block per
  expert — each read off the fold of the host operations the kernel's arrays are found after.
-/
import proofs.«151793_j6390911336673_1_alg».proof.Proof.Gen.KernelIdeal.Frame
import proofs.«151793_j6390911336673_1_alg».proof.Proof.Spec
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.GroupedGemm (order rowsSorted weightSorted scatterBack flat_ids group_weight bias_block flat_slots)

variable (m : (ℓ : Loc nD τ sig) → Buf (Elt Ideal) ℓ)

-- the sort, the two gathers and the scatter stay opaque in these comparisons: the equations hold whatever they compute
attribute [local irreducible] Host.sort2 Host.gather Host.scatter in
set_option maxRecDepth 8192 in
/-- The kernel finds the slots' sorted order in the argsort's result buffer. -/
theorem order_at_entry (c : Dev nD) :
    V m c main_v1 = order (m ((c : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

attribute [local irreducible] Host.sort2 Host.gather Host.scatter in
set_option maxRecDepth 8192 in
/-- Window 0's array: the token rows in sorted order, grouped by expert. -/
theorem rows_at_entry (c : Dev nD) :
    V m c main_v10 = rowsSorted (m ((c : Thread nD τ).loc main_arg0)) (m ((c : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

attribute [local irreducible] Host.sort2 Host.gather Host.scatter in
set_option maxRecDepth 8192 in
/-- Window 3's array: the routing weights in sorted order, regrouped as [64, 32, 1]. -/
theorem weight_at_entry (c : Dev nD) :
    V m c main_v19 = shapeCast Cert.GroupedGemm.S64x32x1
      (weightSorted (m ((c : Thread nD τ).loc main_arg3)) (m ((c : Thread nD τ).loc main_arg4))) group_weight := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- Window 2's array: the bias as one [1, 2048] block per expert. -/
theorem bias_at_entry (c : Dev nD) :
    V m c main_v20 = shapeCast Cert.GroupedGemm.S64x1x2048 (m ((c : Thread nD τ).loc main_arg2)) bias_block := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.Hand

end
-- ==== Proof.KernelTail.lean ====
/-
  The host operations after the kernel: its [64, 32, 2048] array flattened to [2048, 2048] and scattered back to token
  order, over zeros, by the sorted order the argsort left before the kernel ran.
-/
import proofs.«151793_j6390911336673_1_alg».proof.Proof.Gen.KernelIdeal.Frame
import proofs.«151793_j6390911336673_1_alg».proof.Proof.Spec
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.GroupedGemm (scatterBack flat_slots)

variable (m : (ℓ : Loc nD τ sig) → Buf (Elt Ideal) ℓ)

-- the scatter stays opaque in this comparison: the equation holds whatever it computes
attribute [local irreducible] Host.sort2 Host.gather Host.scatter in
set_option maxHeartbeats 1000000 in
/-- The result buffer after the operations that follow the kernel: the kernel's array, flattened, scattered back by the
    sorted order found in the argsort's buffer (which the kernel does not touch). -/
theorem tail_eq (c : Dev nD) :
    Pipeline.afterTail₀ cfgs (dats m) 0 (V0 m) [hostOps1] c main_v31
      = scatterBack (V m c main_v1) (shapeCast Cert.GroupedGemm.S2048x2048 ((dats m 0 c).arrAt 4 cfg0.N) flat_slots) := by
  unfold Pipeline.afterTail₀
  show StableHlo.after hostOps1 _ (Proc.devRef .tc main_v31) = _
  after_results_simp
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h21 : Pipeline.withArrays (cfgs 0).spec c (V0 m c) (fun w => (dats m 0 c).arrAt w (cfgs 0).N) (Proc.devRef .tc main_v21)
      = (dats m 0 c).arrAt 4 cfg0.N :=
    Pipeline.withArrays_arr spec0 launch0.win.arr_inj c _ _ 4
  rw [h1, h21]
  rfl

end Cert.KernelIdeal.Hand

end
-- ==== Proof.KernelPay.lean ====
/-
  What the kernel body stores, read at one entry.

  At a grid point the body loads the expert's 32 sorted token rows, the expert's [2048, 1024] weight matrix, its bias
  row and the 32 slot weights, and stores (rows · weightsᵀ + bias) · slot weight.  Read at place `c`, column `n` this
  is `(∑ k, rows c k · B n k + bias n) · w c`: the rounding to the narrow format on the way into the product is the
  identity on extended reals, the product into a zero accumulator is the plain sum over the contracted coordinate,
  and the leading unit axes of the blocks are dropped and put back by casts that keep row-major positions.
-/
import proofs.«151793_j6390911336673_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The body's product into the zero accumulator, at (c, n): the sum over the contracted coordinate of the products
    of row `c` of the left operand and row `n` of the right one. -/
theorem product_at (a : FVec Ideal S32x1024 .bf16) (b : FVec Ideal S2048x1024 .bf16) (c : Fin 32) (n : Fin 2048) :
    matmul dot_S32x1024_S2048x1024_S32x2048_1_1_0_0_n_n none a b (constant (F := Ideal) S32x2048 .f32 0x00000000#32) (ix2 c n)
      = ∑ k : Fin 1024, a (ix2 c k) * b (ix2 n k) := by
  show FloatOps.matmul _ none a b (constant (F := Ideal) S32x2048 .f32 0x00000000#32) (ix2 c n) = _
  rw [Ideal.matmul_constant_zero_apply,
    ← Equiv.sum_comp (contrEquiv1 dot_S32x1024_S2048x1024_S32x2048_1_1_0_0_n_n 1024 rfl rfl).symm]
  refine Finset.sum_congr rfl fun k _ => ?_
  have ck := contrEquiv1_symm_val dot_S32x1024_S2048x1024_S32x2048_1_1_0_0_n_n 1024 rfl rfl k
  have hl : dot_S32x1024_S2048x1024_S32x2048_1_1_0_0_n_n.lhsIdx (ix2 c n)
      ((contrEquiv1 dot_S32x1024_S2048x1024_S32x2048_1_1_0_0_n_n 1024 rfl rfl).symm k) = ix2 c k := by
    funext ax; apply Fin.ext
    match ax with
    | ⟨0, _⟩ => simp [DotDims.lhsIdx, dot_S32x1024_S2048x1024_S32x2048_1_1_0_0_n_n]; rfl
    | ⟨1, _⟩ => simp [DotDims.lhsIdx, dot_S32x1024_S2048x1024_S32x2048_1_1_0_0_n_n]; exact ck
  have hr : dot_S32x1024_S2048x1024_S32x2048_1_1_0_0_n_n.rhsIdx (ix2 c n)
      ((contrEquiv1 dot_S32x1024_S2048x1024_S32x2048_1_1_0_0_n_n 1024 rfl rfl).symm k) = ix2 n k := by
    funext ax; apply Fin.ext
    match ax with
    | ⟨0, _⟩ => simp [DotDims.rhsIdx, dot_S32x1024_S2048x1024_S32x2048_1_1_0_0_n_n]; rfl
    | ⟨1, _⟩ => simp [DotDims.rhsIdx, dot_S32x1024_S2048x1024_S32x2048_1_1_0_0_n_n]; exact ck
  rw [hl, hr]

/-- The product of the two loaded blocks, their unit axes dropped and their entries rounded on the way in. -/
theorem gemm_at (x0 : Vec Ideal S1x32x1024 .f32) (x1 : Vec Ideal S1x2048x1024 .f32) (c : Fin 32) (n : Fin 2048) :
    matmul dot_S32x1024_S2048x1024_S32x2048_1_1_0_0_n_n none
        (truncf .bf16 (shapeCast S32x1024 x0 shapeCasts_S1x32x1024_S32x1024) bitsLt_bf16_f32)
        (truncf .bf16 (shapeCast S2048x1024 x1 shapeCasts_S1x2048x1024_S2048x1024) bitsLt_bf16_f32)
        (constant (F := Ideal) S32x2048 .f32 0x00000000#32) (ix2 c n)
      = ∑ k : Fin 1024, x0 (ix3 (0 : Fin 1) c k) * x1 (ix3 (0 : Fin 1) n k) := by
  rw [product_at]
  refine Finset.sum_congr rfl fun k _ => ?_
  rw [truncf_apply, truncf_apply, shapeCast_1ab_ab_apply, shapeCast_1ab_ab_apply]

/-- The bias row broadcast over the 32 places reads the bias at the column. -/
theorem bias_at (x2 : Vec Ideal S1x1x2048 .f32) (c : Fin 32) (n : Fin 2048) :
    broadcastTo S32x2048 (shapeCast S1x2048 (shapeCast S2048 x2 shapeCasts_S1x1x2048_S2048) shapeCasts_S2048_S1x2048)
        broadcasts_S1x2048_S32x2048 (ix2 c n) = x2 (ix3 (0 : Fin 1) (0 : Fin 1) n) := by
  rw [broadcastTo_1b_ab_apply, shapeCast_a_1a_apply]
  exact shapeCast_apply x2 shapeCasts_S1x1x2048_S2048 _ _ (by
    rw [Shape.rowMajor_val_three, Shape.rowMajor_val_one]
    show (0 * 1 + 0) * 2048 + n.val = n.val
    omega)

/-- The slot weights broadcast along the columns read the weight at the place. -/
theorem weight_at (x3 : Vec Ideal S1x32x1 .f32) (c : Fin 32) (n : Fin 2048) :
    broadcastTo S32x2048 (shapeCast S32x1 x3 shapeCasts_S1x32x1_S32x1) broadcasts_S32x1_S32x2048 (ix2 c n)
      = x3 (ix3 (0 : Fin 1) c (0 : Fin 1)) := by
  refine (broadcastTo_apply _ broadcasts_S32x1_S32x2048 (ix2 c n) (ix2 c (0 : Fin 1)) fun a => ?_).trans ?_
  · match a with
    | ⟨0, _⟩ => rfl
    | ⟨1, _⟩ => rfl
  · exact shapeCast_1ab_ab_apply x3 _ c (0 : Fin 1)

/-- THE STORED BLOCK AT AN ENTRY. -/
theorem pay_apply (x0 : Vec Ideal S1x32x1024 .f32) (x1 : Vec Ideal S1x2048x1024 .f32) (x2 : Vec Ideal S1x1x2048 .f32)
    (x3 : Vec Ideal S1x32x1 .f32) (u : Fin 1) (c : Fin 32) (n : Fin 2048) :
    k0_pay1 x0 x1 x2 x3 (ix3 u c n)
      = (∑ k : Fin 1024, x0 (ix3 (0 : Fin 1) c k) * x1 (ix3 (0 : Fin 1) n k) + x2 (ix3 (0 : Fin 1) (0 : Fin 1) n))
          * x3 (ix3 (0 : Fin 1) c (0 : Fin 1)) := by
  unfold k0_pay1
  simp only [shapeCast_self]
  refine (shapeCast_ab_1ab_apply _ _ u c n).trans ?_
  rw [mulf_apply, addf_apply, gemm_at, bias_at, weight_at]

end Cert.KernelIdeal.Hand

end
-- ==== Proof.KernelBlocks.lean ====
/-
  From the blocks the kernel writes back to its whole [64, 32, 2048] array.

  Grid point `t` is expert `t`: every window's block there is block (t, 0, 0) of its array — the expert's 32 sorted token
  rows, its weight matrix, its bias row, its 32 slot weights, and its [32, 2048] block of the result.  So what point `t`
  writes back is block `t` of ONE function of the arrays the kernel finds (`groupOut`), the 64 blocks tile the result
  array, and after the run the array is that function.
-/
import proofs.«151793_j6390911336673_1_alg».proof.Proof.Gen.KernelIdeal.Frame
import proofs.«151793_j6390911336673_1_alg».proof.Proof.Spec
import proofs.«151793_j6390911336673_1_alg».proof.Proof.KernelPay
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.GroupedGemm (groupOut groupOutAt)
open scoped BigOperators

variable (m : (ℓ : Loc nD τ sig) → Buf (Elt Ideal) ℓ)

theorem zero_offsets : (![0, 0, 0] : Fin 3 → Nat) = fun _ => 0 := funext fun a => by fin_cases a <;> rfl

/-- The printed index maps, decided over the grid: at point `t` every window is on block (t, 0, 0). -/
theorem block_of_point : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The stored block at any index of the block: the entry's place and column are its second and third coordinates. -/
theorem pay_at (x0 : Vec Ideal S1x32x1024 .f32) (x1 : Vec Ideal S1x2048x1024 .f32) (x2 : Vec Ideal S1x1x2048 .f32)
    (x3 : Vec Ideal S1x32x1 .f32) (j : S1x32x2048.Idx) :
    k0_pay1 x0 x1 x2 x3 j
      = (∑ k : Fin 1024, x0 (ix3 (0 : Fin 1) (j 1) k) * x1 (ix3 (0 : Fin 1) (j 2) k) + x2 (ix3 (0 : Fin 1) (0 : Fin 1) (j 2)))
          * x3 (ix3 (0 : Fin 1) (j 1) (0 : Fin 1)) :=
  (congrArg (k0_pay1 x0 x1 x2 x3) (eq_ix3 j)).trans (pay_apply x0 x1 x2 x3 (j 0) (j 1) (j 2))

/-- Window 0's block at point `t` is rows (t, ·, ·) of the sorted token rows. -/
theorem rows_block (c : Dev nD) (t : Fin cfg0.N) (x : S1x32x1024.Idx) (k : S64x32x1024.Idx)
    (h0 : (k 0).val = t.val) (h1 : (k 1).val = (x 1).val) (h2 : (k 2).val = (x 2).val) :
    (iblk m c 0 t : Vec Ideal S1x32x1024 .f32) x = (V m c main_v10 : S64x32x1024.Idx → Elt Ideal .f32) k := by
  obtain ⟨⟨e0, e1, e2⟩, -⟩ := block_of_point t
  have hx : (x 0).val < 1 := (x 0).isLt
  unfold iblk
  rw [View.read_apply]
  show V m c main_v10 _ = V m c main_v10 _
  refine congrArg _ ?_
  funext a; apply Fin.ext
  match a with
  | ⟨0, _⟩ => show win0_0.index t (0 : Fin 3) * 1 + 1 * (x 0).val = (k 0).val; rw [e0, h0]; omega
  | ⟨1, _⟩ => show win0_0.index t (1 : Fin 3) * 32 + 1 * (x 1).val = (k 1).val; rw [e1, h1]; omega
  | ⟨2, _⟩ => show win0_0.index t (2 : Fin 3) * 1024 + 1 * (x 2).val = (k 2).val; rw [e2, h2]; omega

/-- Window 1's block at point `t` is expert `t`'s weight matrix. -/
theorem expert_block (c : Dev nD) (t : Fin cfg0.N) (x : S1x2048x1024.Idx) (k : S64x2048x1024.Idx)
    (h0 : (k 0).val = t.val) (h1 : (k 1).val = (x 1).val) (h2 : (k 2).val = (x 2).val) :
    (iblk m c 1 t : Vec Ideal S1x2048x1024 .f32) x = (V m c main_arg1 : S64x2048x1024.Idx → Elt Ideal .f32) k := by
  obtain ⟨-, ⟨e0, e1, e2⟩, -⟩ := block_of_point t
  have hx : (x 0).val < 1 := (x 0).isLt
  unfold iblk
  rw [View.read_apply]
  show V m c main_arg1 _ = V m c main_arg1 _
  refine congrArg _ ?_
  funext a; apply Fin.ext
  match a with
  | ⟨0, _⟩ => show win0_1.index t (0 : Fin 3) * 1 + 1 * (x 0).val = (k 0).val; rw [e0, h0]; omega
  | ⟨1, _⟩ => show win0_1.index t (1 : Fin 3) * 2048 + 1 * (x 1).val = (k 1).val; rw [e1, h1]; omega
  | ⟨2, _⟩ => show win0_1.index t (2 : Fin 3) * 1024 + 1 * (x 2).val = (k 2).val; rw [e2, h2]; omega

/-- Window 2's block at point `t` is expert `t`'s bias row. -/
theorem bias_block_at (c : Dev nD) (t : Fin cfg0.N) (x : S1x1x2048.Idx) (k : S64x1x2048.Idx)
    (h0 : (k 0).val = t.val) (h2 : (k 2).val = (x 2).val) :
    (iblk m c 2 t : Vec Ideal S1x1x2048 .f32) x = (V m c main_v20 : S64x1x2048.Idx → Elt Ideal .f32) k := by
  obtain ⟨-, -, ⟨e0, e1, e2⟩, -⟩ := block_of_point t
  have hx : (x 0).val < 1 := (x 0).isLt
  have hx1 : (x 1).val < 1 := (x 1).isLt
  have hk1 : (k 1).val < 1 := (k 1).isLt
  unfold iblk
  rw [View.read_apply]
  show V m c main_v20 _ = V m c main_v20 _
  refine congrArg _ ?_
  funext a; apply Fin.ext
  match a with
  | ⟨0, _⟩ => show win0_2.index t (0 : Fin 3) * 1 + 1 * (x 0).val = (k 0).val; rw [e0, h0]; omega
  | ⟨1, _⟩ => show win0_2.index t (1 : Fin 3) * 1 + 1 * (x 1).val = (k 1).val; rw [e1]; omega
  | ⟨2, _⟩ => show win0_2.index t (2 : Fin 3) * 2048 + 1 * (x 2).val = (k 2).val; rw [e2, h2]; omega

/-- Window 3's block at point `t` is expert `t`'s 32 slot weights. -/
theorem weight_block (c : Dev nD) (t : Fin cfg0.N) (x : S1x32x1.Idx) (k : S64x32x1.Idx)
    (h0 : (k 0).val = t.val) (h1 : (k 1).val = (x 1).val) :
    (iblk m c 3 t : Vec Ideal S1x32x1 .f32) x = (V m c main_v19 : S64x32x1.Idx → Elt Ideal .f32) k := by
  obtain ⟨-, -, -, ⟨e0, e1, e2⟩, -⟩ := block_of_point t
  have hx : (x 0).val < 1 := (x 0).isLt
  have hx2 : (x 2).val < 1 := (x 2).isLt
  have hk2 : (k 2).val < 1 := (k 2).isLt
  unfold iblk
  rw [View.read_apply]
  show V m c main_v19 _ = V m c main_v19 _
  refine congrArg _ ?_
  funext a; apply Fin.ext
  match a with
  | ⟨0, _⟩ => show win0_3.index t (0 : Fin 3) * 1 + 1 * (x 0).val = (k 0).val; rw [e0, h0]; omega
  | ⟨1, _⟩ => show win0_3.index t (1 : Fin 3) * 32 + 1 * (x 1).val = (k 1).val; rw [e1, h1]; omega
  | ⟨2, _⟩ => show win0_3.index t (2 : Fin 3) * 1 + 1 * (x 2).val = (k 2).val; rw [e2]; omega

/-- WHAT POINT `t` WRITES BACK is block `t` of the per-expert result of the arrays the kernel finds. -/
theorem flushed_eq (c : Dev nD) (t : Fin cfg0.N) :
    (dats m 0 c).flushed 4 t = ((cfg0.win 4).blk t).view.read (Elt Ideal)
      (groupOut (V m c main_v10) (V m c main_arg1) (V m c main_v20) (V m c main_v19)) := by
  show (cfg0.win 4).cut (grid0.coords t) ((dats m 0 c).after 4 t) = _
  rw [after0_4]
  unfold out0_4
  rw [View.canon_unit_zero zero_offsets]
  simp only [View.ld_unit_zero (S := S1x32x1024) zero_offsets, View.ld_unit_zero (S := S1x2048x1024) zero_offsets,
    View.ld_unit_zero (S := S1x1x2048) zero_offsets, View.ld_unit_zero (S := S1x32x1) zero_offsets]
  obtain ⟨-, -, -, -, ⟨e0, e1, e2⟩⟩ := block_of_point t
  funext j
  have hj0 : (j 0).val < 1 := (j 0).isLt
  obtain ⟨i, hi⟩ : ∃ i : S64x32x2048.Idx, i = ((cfg0.win 4).blk t).view.emb j := ⟨_, rfl⟩
  have i0 : (i 0).val = t.val := by
    rw [hi]; show win0_4.index t (0 : Fin 3) * 1 + 1 * (j 0).val = t.val; rw [e0]; omega
  have i1 : (i 1).val = (j 1).val := by
    rw [hi]; show win0_4.index t (1 : Fin 3) * 32 + 1 * (j 1).val = (j 1).val; rw [e1]; omega
  have i2 : (i 2).val = (j 2).val := by
    rw [hi]; show win0_4.index t (2 : Fin 3) * 2048 + 1 * (j 2).val = (j 2).val; rw [e2]; omega
  show k0_pay1 (iblk m c 0 t) (iblk m c 1 t) (iblk m c 2 t) (iblk m c 3 t) j
      = groupOut (V m c main_v10) (V m c main_arg1) (V m c main_v20) (V m c main_v19) (((cfg0.win 4).blk t).view.emb j)
  rw [← hi]
  refine (pay_at _ _ _ _ j).trans ?_
  show _ = groupOutAt _ _ _ _ (i 0) (i 1) (i 2)
  unfold groupOutAt
  refine congrArg₂ (· * ·) (congrArg₂ (· + ·) (Finset.sum_congr rfl fun k _ => congrArg₂ (· * ·) ?_ ?_) ?_) ?_
  · exact rows_block m c t _ _ i0 i1 rfl
  · exact expert_block m c t _ _ i0 i2 rfl
  · exact bias_block_at m c t _ _ i0 i2
  · exact weight_block m c t _ _ i0 i1

/-- An index of the result array is in point `t`'s block iff each coordinate is in the block's range on its axis. -/
theorem mem_block (t : Fin cfg0.N) (i : S64x32x2048.Idx) :
    i ∈ ((cfg0.win 4).blk t).view.set ↔ ∀ a : Fin 3, win0_4.index t a * S1x32x2048.size a ≤ (i a).val
      ∧ (i a).val < win0_4.index t a * S1x32x2048.size a + S1x32x2048.size a := by
  show i ∈ ((View.whole main_v21).slice (win0_4.rect t)).set ↔ _
  rw [View.set_slice_whole, Rect.mem_set_unit]
  exact Iff.rfl

/-- Every index of the result array is in the block of the point its expert coordinate names. -/
theorem covered (i : S64x32x2048.Idx) :
    ∃ t : Fin cfg0.N, (cfg0.win 4).flush t = true ∧ i ∈ ((cfg0.win 4).blk t).view.set := by
  have hN : cfg0.N = 64 := N_0
  have hi0 : (i 0).val < 64 := (i 0).isLt
  have hi1 : (i 1).val < 32 := (i 1).isLt
  have hi2 : (i 2).val < 2048 := (i 2).isLt
  obtain ⟨t, ht⟩ : ∃ t : Fin cfg0.N, t.val = (i 0).val := ⟨⟨(i 0).val, by rw [hN]; exact hi0⟩, rfl⟩
  refine ⟨t, flush0_4 t, ?_⟩
  obtain ⟨-, -, -, -, ⟨e0, e1, e2⟩⟩ := block_of_point t
  rw [mem_block]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 32 ≤ (i 1).val ∧ (i 1).val < win0_4.index t (1 : Fin 3) * 32 + 32
    rw [e1]; omega
  | ⟨2, _⟩ =>
    show win0_4.index t (2 : Fin 3) * 2048 ≤ (i 2).val ∧ (i 2).val < win0_4.index t (2 : Fin 3) * 2048 + 2048
    rw [e2]; omega

/-- THE RESULT ARRAY AFTER THE KERNEL: the per-expert result of the arrays the kernel found. -/
theorem final (c : Dev nD) :
    (dats m 0 c).arrAt 4 cfg0.N = groupOut (V m c main_v10) (V m c main_arg1) (V m c main_v20) (V m c main_v19) :=
  (dats m 0 c).arrAt_eq_of_cover 4 _ (fun t _ => flushed_eq m c t) covered

end Cert.KernelIdeal.Hand

end
-- ==== Proof.Layout.lean ====
/-
  The two layouts of the product agree, index by index.

  Sorted slot `s` is place `s % 32` of expert `s / 32`: flattening [64, 32, 2048] to [2048, 2048] keeps the row-major
  position, so row `s` of the flat array is row (s / 32, s % 32) of the grouped one; the bias of an expert, kept as a
  [64, 1, 2048] block or broadcast over the expert's 32 places, is `bias (s / 32) n` either way; the weight of a slot,
  regrouped as [64, 32, 1] or broadcast along its row, is `weight s` either way; and the batched product at
  (e, c, n) is the sum over `k` of `rows (e, c, k) · B (e, n, k)`, the contraction index being its one coordinate.
-/
import proofs.«151793_j6390911336673_1_alg».proof.Proof.Spec

noncomputable section

namespace Cert.GroupedGemm

open Idealize.ShloMosaic Idealize.ShloMosaic.ValueIdx
open scoped BigOperators

/-- The expert a sorted slot belongs to. -/
def expertOf (s : Fin 2048) : Fin 64 := ⟨s.val / 32, by have := s.isLt; omega⟩
/-- Its place among the expert's 32 slots. -/
def placeOf (s : Fin 2048) : Fin 32 := ⟨s.val % 32, by omega⟩

/-- Row (s / 32, s % 32) of the grouped array and row `s` of the flat one have one row-major position. -/
theorem slot_pos (s n : Fin 2048) :
    (S64x32x2048.rowMajor (ix3 (expertOf s) (placeOf s) n)).val = (S2048x2048.rowMajor (ix2 s n)).val := by
  rw [Shape.rowMajor_val_three, Shape.rowMajor_val_two]
  show ((s.val / 32) * 32 + s.val % 32) * 2048 + n.val = s.val * 2048 + n.val
  have := Nat.div_add_mod s.val 32
  omega

/-- The batched product at (e, c, n): the sum over the contracted coordinate. -/
theorem dotBatched_apply (rows : FVec Ideal S64x32x1024 .f32) (B : FVec Ideal S64x2048x1024 .f32) (e : Fin 64) (c : Fin 32) (n : Fin 2048) :
    Host.dotGeneral dotBatched none rows B (ix3 e c n) = ∑ k : Fin 1024, rows (ix3 e c k) * B (ix3 e n k) := by
  show FloatOps.dotGeneral _ none _ rows B (ix3 e c n) = _
  rw [Ideal.dotGeneral_apply, ← Equiv.sum_comp (contrEquiv1 dotBatched 1024 rfl rfl).symm]
  refine Finset.sum_congr rfl fun k _ => ?_
  have ck := contrEquiv1_symm_val dotBatched 1024 rfl rfl k
  have hl : dotBatched.lhsIdx (ix3 e c n) ((contrEquiv1 dotBatched 1024 rfl rfl).symm k) = ix3 e c k := by
    funext ax; apply Fin.ext
    match ax with
    | ⟨0, _⟩ => simp [DotDims.lhsIdx, dotBatched]; rfl
    | ⟨1, _⟩ => simp [DotDims.lhsIdx, dotBatched]; rfl
    | ⟨2, _⟩ => simp [DotDims.lhsIdx, dotBatched]; exact ck
  have hr : dotBatched.rhsIdx (ix3 e c n) ((contrEquiv1 dotBatched 1024 rfl rfl).symm k) = ix3 e n k := by
    funext ax; apply Fin.ext
    match ax with
    | ⟨0, _⟩ => simp [DotDims.rhsIdx, dotBatched]; rfl
    | ⟨1, _⟩ => simp [DotDims.rhsIdx, dotBatched]; rfl
    | ⟨2, _⟩ => simp [DotDims.rhsIdx, dotBatched]; exact ck
  rw [hl, hr]

/-- The bias broadcast over an expert's places reads the expert's bias. -/
theorem bias_rows_apply (bias : FVec Ideal S64x2048 .f32) (e : Fin 64) (c : Fin 32) (n : Fin 2048) :
    broadcastInDim S64x32x2048 ![0, 1, 2] bias_rows (broadcastInDim S64x1x2048 ![0, 2] bias_unit bias) (ix3 e c n) = bias (ix2 e n) := by
  refine (broadcastInDim_apply _ bias_rows _ (ix3 e c n) (ix3 e (0 : Fin 1) n) fun a => ?_).trans ?_
  · match a with
    | ⟨0, _⟩ => rfl
    | ⟨1, _⟩ => rfl
    | ⟨2, _⟩ => rfl
  · refine broadcastInDim_apply _ bias_unit _ (ix3 e (0 : Fin 1) n) (ix2 e n) fun a => ?_
    match a with
    | ⟨0, _⟩ => rfl
    | ⟨1, _⟩ => rfl

/-- The weights broadcast along their rows read the slot's weight. -/
theorem weight_cols_apply (wt : FVec Ideal S2048 .f32) (s n : Fin 2048) :
    broadcastInDim S2048x2048 ![0, 1] weight_cols (broadcastInDim S2048x1 ![0] column wt) (ix2 s n) = wt (ix1 s) := by
  refine (broadcastInDim_apply _ weight_cols _ (ix2 s n) (ix2 s (0 : Fin 1)) fun a => ?_).trans ?_
  · match a with
    | ⟨0, _⟩ => rfl
    | ⟨1, _⟩ => rfl
  · refine broadcastInDim_apply _ column _ (ix2 s (0 : Fin 1)) (ix1 s) fun a => ?_
    match a with
    | ⟨0, _⟩ => rfl

/-- The bias kept as one [1, 2048] block per expert reads the expert's bias. -/
theorem bias_block_apply (bias : FVec Ideal S64x2048 .f32) (e : Fin 64) (u : Fin 1) (n : Fin 2048) :
    shapeCast S64x1x2048 bias bias_block (ix3 e u n) = bias (ix2 e n) :=
  shapeCast_apply bias bias_block _ _ (by
    rw [Shape.rowMajor_val_two, Shape.rowMajor_val_three]
    show e.val * 2048 + n.val = (e.val * 1 + u.val) * 2048 + n.val
    have := u.isLt
    omega)

/-- The weights regrouped as [64, 32, 1] read the slot's weight. -/
theorem group_weight_apply (wt : FVec Ideal S2048 .f32) (s : Fin 2048) (u : Fin 1) :
    shapeCast S64x32x1 wt group_weight (ix3 (expertOf s) (placeOf s) u) = wt (ix1 s) :=
  shapeCast_apply wt group_weight _ _ (by
    rw [Shape.rowMajor_val_one, Shape.rowMajor_val_three]
    show s.val = ((s.val / 32) * 32 + s.val % 32) * 1 + u.val
    have := u.isLt
    have := Nat.div_add_mod s.val 32
    omega)

/-- THE TWO LAYOUTS AGREE: the per-expert array over the regrouped bias and weights, flattened, is the batched one. -/
theorem flat_groupOut (rows : FVec Ideal S64x32x1024 .f32) (B : FVec Ideal S64x2048x1024 .f32) (bias : FVec Ideal S64x2048 .f32)
    (wt : FVec Ideal S2048 .f32) :
    shapeCast S2048x2048 (groupOut rows B (shapeCast S64x1x2048 bias bias_block) (shapeCast S64x32x1 wt group_weight)) flat_slots
      = flatOut rows B bias wt := by
  funext j
  obtain ⟨s, n, rfl⟩ : ∃ (s : Fin 2048) (n : Fin 2048), j = ix2 s n := ⟨j 0, j 1, eq_ix2 j⟩
  refine (shapeCast_apply _ flat_slots (ix2 s n) (ix3 (expertOf s) (placeOf s) n) (slot_pos s n)).trans ?_
  unfold flatOut
  rw [mulf_apply, shapeCast_apply _ flat_slots (ix2 s n) (ix3 (expertOf s) (placeOf s) n) (slot_pos s n), addf_apply,
    dotBatched_apply, bias_rows_apply, weight_cols_apply]
  show groupOutAt _ _ _ _ (expertOf s) (placeOf s) n = _
  unfold groupOutAt
  rw [bias_block_apply, group_weight_apply]

end Cert.GroupedGemm

end
-- ==== Proof.KernelRun.lean ====
/-
  The kernel program's run, read: its result buffer ends at the slots scattered back to token order, the slots being
  the batched layout of the product of the sorted token rows with the experts' matrices, plus bias, times the sorted
  routing weights.

  The frame run leaves the result buffer at the operations after the kernel applied to the kernel's array; that array
  is the per-expert result (`groupOut`) of the arrays found at the kernel's entry; those are the shared host functions
  of the arguments; and the per-expert result, flattened, is the batched layout.
-/
import proofs.«151793_j6390911336673_1_alg».proof.Proof.KernelHost
import proofs.«151793_j6390911336673_1_alg».proof.Proof.KernelTail
import proofs.«151793_j6390911336673_1_alg».proof.Proof.KernelBlocks
import proofs.«151793_j6390911336673_1_alg».proof.Proof.Layout

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.GroupedGemm (order rowsSorted weightSorted scatterBack flatOut groupOut flat_groupOut)

variable (m : (ℓ : Loc nD τ sig) → Buf (Elt Ideal) ℓ) (ρ : Dev nD → PrngReg)

/-- The kernel program's result as a function of its five argument arrays. -/
def result (A : FVec Ideal S256x1024 .f32) (B : FVec Ideal S64x2048x1024 .f32) (bias : FVec Ideal S64x2048 .f32)
    (W : FVec Ideal S256x8 .f32) (ids : IVec S256x8 32) : FVec Ideal S256x8x2048 .f32 :=
  scatterBack (order ids) (flatOut (rowsSorted A ids) B bias (weightSorted W ids))

/-- The result buffer after the whole program is `result` of the launched arguments. -/
theorem result_eq (c : Dev nD) :
    Pipeline.afterTail₀ cfgs (dats m) 0 (V0 m) [hostOps1] c main_v31
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, final, order_at_entry, rows_at_entry, weight_at_entry, bias_at_entry, V_main_arg1]
  unfold result
  exact congrArg _ (flat_groupOut _ _ _ _)

/-- The run, read: the result buffer at `result` of the launched arguments, the arguments unchanged. -/
theorem run : θ_run defs (onTc (τ := τ) (main (F := Ideal))) ⟨m, fun _ => 0, ρ⟩ fun r => ∀ c : Dev nD,
      r.2.mem ((c.tc : Thread nD τ).loc main_v31)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefRun.lean ====
/-
  The reference program's entry point as a straight line of host operations, and its run.

  The reference calls two outlined functions (the stable argsort of the flattened expert ids, and the floor
  division of the sorted positions by the top-k width); a call executes the callee's operations on the call's
  own buffers, so the entry point is one list of 62 operations: the flattening of the ids, the argsort's three
  operations, the divisor, the floor division's seventeen, and the 40 operations of the gather / grouped
  product / bias / weight / scatter chain.  Every weakly fair execution of that list terminates with every
  buffer at the fold of the operations' results over the launch contents.
-/
import proofs.«151793_j6390911336673_1_alg».proof.Proof.Gen.ReferenceIdeal
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀

variable {F : FTy → Type} [FloatOps F]

/-- The entry point's 62 operations, in program order, the two callees' operations at their call sites. -/
abbrev ops : List (HloOp τ sig (Elt F)) :=
  [ StableHlo.reshape main_arg4 main_v0 rfl shapeCasts_S256x8_S2048,
    StableHlo.TRef.nullary (.of main_call0_v0 : StableHlo.TRef sig ⟨S2048, .i32⟩) (iotaInDim S2048 32 0),
    StableHlo.TRef.binary (.of main_v0 : StableHlo.TRef sig ⟨S2048, .i32⟩) (.of main_call0_v0 : StableHlo.TRef sig ⟨S2048, .i32⟩) (.of main_call0_v1_0 : StableHlo.TRef sig ⟨S2048, .i32⟩) (fun x y => (Host.sort2 S2048 0 comparator_i32_i32_d0 x y).1),
    StableHlo.TRef.binary (.of main_v0 : StableHlo.TRef sig ⟨S2048, .i32⟩) (.of main_call0_v0 : StableHlo.TRef sig ⟨S2048, .i32⟩) (.of main_v1 : StableHlo.TRef sig ⟨S2048, .i32⟩) (fun x y => (Host.sort2 S2048 0 comparator_i32_i32_d0 x y).2),
    StableHlo.nullary main_c (constantI S_ 32 8#32),
    StableHlo.TRef.unary (.of main_c : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2048, .i32⟩) (broadcastInDim S2048 ![] bcast_S_S2048),
    StableHlo.TRef.binary (.of main_v1 : StableHlo.TRef sig ⟨S2048, .i32⟩) (.of main_call1_v1 : StableHlo.TRef sig ⟨S2048, .i32⟩) (.of main_call1_v2 : StableHlo.TRef sig ⟨S2048, .i32⟩) Host.divsi,
    StableHlo.TRef.unary (.of main_v1 : StableHlo.TRef sig ⟨S2048, .i32⟩) (.of main_call1_v3 : StableHlo.TRef sig ⟨S2048, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S2048, .i32⟩) (broadcastInDim S2048 ![] bcast_S_S2048),
    StableHlo.TRef.binary (.of main_call1_v3 : StableHlo.TRef sig ⟨S2048, .i32⟩) (.of main_call1_v5 : StableHlo.TRef sig ⟨S2048, .i32⟩) (.of main_call1_v6 : StableHlo.TRef sig ⟨S2048, .i1⟩) (cmpi .ne),
    StableHlo.TRef.unary (.of main_call1_v0 : StableHlo.TRef sig ⟨S_, .i32⟩) (.of main_call1_v7 : StableHlo.TRef sig ⟨S2048, .i32⟩) (broadcastInDim S2048 ![] bcast_S_S2048),
    StableHlo.TRef.binary (.of main_v1 : StableHlo.TRef sig ⟨S2048, .i32⟩) (.of main_call1_v7 : StableHlo.TRef sig ⟨S2048, .i32⟩) (.of main_call1_v8 : StableHlo.TRef sig ⟨S2048, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S2048, .i32⟩) (broadcastInDim S2048 ![] bcast_S_S2048),
    StableHlo.TRef.binary (.of main_call1_v8 : StableHlo.TRef sig ⟨S2048, .i32⟩) (.of main_call1_v9 : StableHlo.TRef sig ⟨S2048, .i32⟩) (.of main_call1_v10 : StableHlo.TRef sig ⟨S2048, .i1⟩) (cmpi .ne),
    StableHlo.TRef.binary (.of main_call1_v6 : StableHlo.TRef sig ⟨S2048, .i1⟩) (.of main_call1_v10 : StableHlo.TRef sig ⟨S2048, .i1⟩) (.of main_call1_v11 : StableHlo.TRef sig ⟨S2048, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S2048, .i32⟩) (broadcastInDim S2048 ![] bcast_S_S2048),
    StableHlo.TRef.binary (.of main_call1_v2 : StableHlo.TRef sig ⟨S2048, .i32⟩) (.of main_call1_v12 : StableHlo.TRef sig ⟨S2048, .i32⟩) (.of main_call1_v13 : StableHlo.TRef sig ⟨S2048, .i32⟩) subi,
    StableHlo.TRef.ternary (.of main_call1_v11 : StableHlo.TRef sig ⟨S2048, .i1⟩) (.of main_call1_v13 : StableHlo.TRef sig ⟨S2048, .i32⟩) (.of main_call1_v2 : StableHlo.TRef sig ⟨S2048, .i32⟩) (.of main_v2 : StableHlo.TRef sig ⟨S2048, .i32⟩) select,
    StableHlo.nullary main_c_0 (constantI S_ 32 0#32),
    StableHlo.unary main_c_0 main_v3 (broadcastInDim S2048 ![] bcast_S_S2048 : (⟨S_, .i32⟩ : BufTy).Contents (Elt F) → (⟨S2048, .i32⟩ : BufTy).Contents (Elt F)),
    StableHlo.binary main_v2 main_v3 main_v4 (cmpi .slt : (⟨S2048, .i32⟩ : BufTy).Contents (Elt F) → (⟨S2048, .i32⟩ : BufTy).Contents (Elt F) → (⟨S2048, .i1⟩ : BufTy).Contents (Elt F)),
    StableHlo.nullary main_c_1 (constantI S_ 32 256#32),
    StableHlo.unary main_c_1 main_v5 (broadcastInDim S2048 ![] bcast_S_S2048 : (⟨S_, .i32⟩ : BufTy).Contents (Elt F) → (⟨S2048, .i32⟩ : BufTy).Contents (Elt F)),
    StableHlo.binary main_v2 main_v5 main_v6 (addi : (⟨S2048, .i32⟩ : BufTy).Contents (Elt F) → (⟨S2048, .i32⟩ : BufTy).Contents (Elt F) → (⟨S2048, .i32⟩ : BufTy).Contents (Elt F)),
    StableHlo.ternary main_v4 main_v6 main_v2 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v7 main_v8 (broadcastInDim S2048x1 ![0] bcast_S2048_S2048x1_0 : (⟨S2048, .i32⟩ : BufTy).Contents (Elt F) → (⟨S2048x1, .i32⟩ : BufTy).Contents (Elt F)),
    StableHlo.binary main_arg0 main_v8 main_v9 ((fun x i => Host.gather gather_S256x1024_S2048x1_S2048x1024_1_0_n_n_0_1_11024 x i) : (⟨S256x1024, .f32⟩ : BufTy).Contents (Elt F) → (⟨S2048x1, .i32⟩ : BufTy).Contents (Elt F) → (⟨S2048x1024, .f32⟩ : BufTy).Contents (Elt F)),
    StableHlo.reshape main_v9 main_v10 rfl shapeCasts_S2048x1024_S64x32x1024,
    StableHlo.binary main_v10 main_arg1 main_v11 ((fun l r => Host.dotGeneral dot_S64x32x1024_S64x2048x1024_S64x32x2048_2_2_1_1_0_0 none l r) : (⟨S64x32x1024, .f32⟩ : BufTy).Contents (Elt F) → (⟨S64x2048x1024, .f32⟩ : BufTy).Contents (Elt F) → (⟨S64x32x2048, .f32⟩ : BufTy).Contents (Elt F)),
    StableHlo.unary main_arg2 main_v12 (broadcastInDim S64x1x2048 ![0, 2] bcast_S64x2048_S64x1x2048_0_2 : (⟨S64x2048, .f32⟩ : BufTy).Contents (Elt F) → (⟨S64x1x2048, .f32⟩ : BufTy).Contents (Elt F)),
    StableHlo.unary main_v12 main_v13 (broadcastInDim S64x32x2048 ![0, 1, 2] bcast_S64x1x2048_S64x32x2048_0_1_2 : (⟨S64x1x2048, .f32⟩ : BufTy).Contents (Elt F) → (⟨S64x32x2048, .f32⟩ : BufTy).Contents (Elt F)),
    StableHlo.binary main_v11 main_v13 main_v14 (addf : (⟨S64x32x2048, .f32⟩ : BufTy).Contents (Elt F) → (⟨S64x32x2048, .f32⟩ : BufTy).Contents (Elt F) → (⟨S64x32x2048, .f32⟩ : BufTy).Contents (Elt F)),
    StableHlo.reshape main_arg3 main_v15 rfl shapeCasts_S256x8_S2048,
    StableHlo.nullary main_c_2 (constantI S_ 32 0#32),
    StableHlo.unary main_c_2 main_v16 (broadcastInDim S2048 ![] bcast_S_S2048 : (⟨S_, .i32⟩ : BufTy).Contents (Elt F) → (⟨S2048, .i32⟩ : BufTy).Contents (Elt F)),
    StableHlo.binary main_v1 main_v16 main_v17 (cmpi .slt : (⟨S2048, .i32⟩ : BufTy).Contents (Elt F) → (⟨S2048, .i32⟩ : BufTy).Contents (Elt F) → (⟨S2048, .i1⟩ : BufTy).Contents (Elt F)),
    StableHlo.nullary main_c_3 (constantI S_ 32 2048#32),
    StableHlo.unary main_c_3 main_v18 (broadcastInDim S2048 ![] bcast_S_S2048 : (⟨S_, .i32⟩ : BufTy).Contents (Elt F) → (⟨S2048, .i32⟩ : BufTy).Contents (Elt F)),
    StableHlo.binary main_v1 main_v18 main_v19 (addi : (⟨S2048, .i32⟩ : BufTy).Contents (Elt F) → (⟨S2048, .i32⟩ : BufTy).Contents (Elt F) → (⟨S2048, .i32⟩ : BufTy).Contents (Elt F)),
    StableHlo.ternary main_v17 main_v19 main_v1 main_v20 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v20 main_v21 (broadcastInDim S2048x1 ![0] bcast_S2048_S2048x1_0 : (⟨S2048, .i32⟩ : BufTy).Contents (Elt F) → (⟨S2048x1, .i32⟩ : BufTy).Contents (Elt F)),
    StableHlo.binary main_v15 main_v21 main_v22 ((fun x i => Host.gather gather_S2048_S2048x1_S2048_n_0_n_n_0_1_1 x i) : (⟨S2048, .f32⟩ : BufTy).Contents (Elt F) → (⟨S2048x1, .i32⟩ : BufTy).Contents (Elt F) → (⟨S2048, .f32⟩ : BufTy).Contents (Elt F)),
    StableHlo.reshape main_v14 main_v23 rfl shapeCasts_S64x32x2048_S2048x2048,
    StableHlo.unary main_v22 main_v24 (broadcastInDim S2048x1 ![0] bcast_S2048_S2048x1_0 : (⟨S2048, .f32⟩ : BufTy).Contents (Elt F) → (⟨S2048x1, .f32⟩ : BufTy).Contents (Elt F)),
    StableHlo.unary main_v24 main_v25 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v23 main_v25 main_v26 (mulf : (⟨S2048x2048, .f32⟩ : BufTy).Contents (Elt F) → (⟨S2048x2048, .f32⟩ : BufTy).Contents (Elt F) → (⟨S2048x2048, .f32⟩ : BufTy).Contents (Elt F)),
    StableHlo.nullary main_cst (constant S_ .f32 0x00000000#32),
    StableHlo.unary main_cst main_v27 (broadcastInDim S2048x2048 ![] bcast_S_S2048x2048 : (⟨S_, .f32⟩ : BufTy).Contents (Elt F) → (⟨S2048x2048, .f32⟩ : BufTy).Contents (Elt F)),
    StableHlo.nullary main_c_4 (constantI S_ 32 0#32),
    StableHlo.unary main_c_4 main_v28 (broadcastInDim S2048 ![] bcast_S_S2048 : (⟨S_, .i32⟩ : BufTy).Contents (Elt F) → (⟨S2048, .i32⟩ : BufTy).Contents (Elt F)),
    StableHlo.binary main_v1 main_v28 main_v29 (cmpi .slt : (⟨S2048, .i32⟩ : BufTy).Contents (Elt F) → (⟨S2048, .i32⟩ : BufTy).Contents (Elt F) → (⟨S2048, .i1⟩ : BufTy).Contents (Elt F)),
    StableHlo.nullary main_c_5 (constantI S_ 32 2048#32),
    StableHlo.unary main_c_5 main_v30 (broadcastInDim S2048 ![] bcast_S_S2048 : (⟨S_, .i32⟩ : BufTy).Contents (Elt F) → (⟨S2048, .i32⟩ : BufTy).Contents (Elt F)),
    StableHlo.binary main_v1 main_v30 main_v31 (addi : (⟨S2048, .i32⟩ : BufTy).Contents (Elt F) → (⟨S2048, .i32⟩ : BufTy).Contents (Elt F) → (⟨S2048, .i32⟩ : BufTy).Contents (Elt F)),
    StableHlo.ternary main_v29 main_v31 main_v1 main_v32 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v32 main_v33 (broadcastInDim S2048x1 ![0] bcast_S2048_S2048x1_0 : (⟨S2048, .i32⟩ : BufTy).Contents (Elt F) → (⟨S2048x1, .i32⟩ : BufTy).Contents (Elt F)),
    StableHlo.ternary main_v27 main_v33 main_v26 main_v34 ((fun x i u => Host.scatter scatter_S2048x2048_S2048x1_S2048x2048_1_0_0_1 (fun _ b => b) x i u) : (⟨S2048x2048, .f32⟩ : BufTy).Contents (Elt F) → (⟨S2048x1, .i32⟩ : BufTy).Contents (Elt F) → (⟨S2048x2048, .f32⟩ : BufTy).Contents (Elt F) → (⟨S2048x2048, .f32⟩ : BufTy).Contents (Elt F)),
    StableHlo.reshape main_v34 main_v35 rfl shapeCasts_S2048x2048_S256x8x2048 ]

-- the chain has sixty-two steps, and re-associating it recurses once per step: past the default depth
set_option maxRecDepth 2048 in
/-- The entry point is that straight line: the callees' definitions unfolded at their calls, both sides are one
    chain of host steps once the sequencing is re-associated. -/
theorem main_eq (c : Dev nD) : main (F := F) c = seq ops := by
  simp only [main, fn_argsort.body, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

/-- From any memory with zero counters, every weakly fair execution of the entry point terminates, and every final
    state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference computes: the fold of its 62 host operations at the result buffer, read as the shared host
  functions of the arguments — the slots in sorted order (`order`), the token rows and routing weights gathered in that
  order, the batched product with bias and weights flattened to [2048, 2048] (`flatOut`), scattered back to token order.
-/
import proofs.«151793_j6390911336673_1_alg».proof.Proof.RefRun
import proofs.«151793_j6390911336673_1_alg».proof.Proof.Spec

noncomputable section

namespace Cert.ReferenceIdeal.HandRun

open Cert.ReferenceIdeal Idealize.ShloMosaic Idealize.ShloMosaic.TcCoe Idealize.SL.Sem Idealize.ShloMosaic.StableHlo
open Cert.GroupedGemm (order rowsSorted weightSorted scatterBack flatOut)

/-- The reference's result as a function of its five argument arrays. -/
def result (A : FVec Ideal S256x1024 .f32) (B : FVec Ideal S64x2048x1024 .f32) (bias : FVec Ideal S64x2048 .f32)
    (W : FVec Ideal S256x8 .f32) (ids : IVec S256x8 32) : FVec Ideal S256x8x2048 .f32 :=
  scatterBack (order ids) (flatOut (rowsSorted A ids) B bias (weightSorted W ids))

-- the sort, the two gathers and the scatter stay opaque in this comparison: the equation holds whatever they compute
attribute [local irreducible] Host.sort2 Host.gather Host.scatter in
set_option maxRecDepth 8192 in
set_option maxHeartbeats 1000000 in
/-- The fold at the result buffer is `result` of the launch contents of the five arguments. -/
theorem result_eq (V : Valuation τ sig (Elt Ideal)) :
    after (ops (F := Ideal)) V (main_v35 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp
theorem arg4_eq (V : Valuation τ sig (Elt Ideal)) : after (ops (F := Ideal)) V (main_arg4 : DevRef τ sig) = V (main_arg4 : DevRef τ sig) := by
  after_results_simp

/-- The reference's run, read: the result buffer at `result` of the launched arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v35).trans (result_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.HandRun

end
-- ==== Proof.lean ====
/-
  The routed grouped matrix product against its reference: the three frames, the (empty) idealization ledger, and
  the equality of the two idealized programs' results over the extended reals.

  Both programs sort the 2048 (token, choice) slots by expert, gather the token rows and the routing weights in that
  order, compute per slot `(row · Bᵀ + bias) · weight` with the slot's expert's matrix and bias, and scatter the slots
  back to token order; the kernel computes one expert's 32 slots per grid point, the reference one batched product.
  The kernel's run is read off its generated frame (Proof/KernelRun.lean), the reference's off the straight line of
  its host operations (Proof/RefValue.lean); both end at the same function of the five arguments, the sort, the
  gathers and the scatter never opened, and no precondition on the values used.
-/
import proofs.«151793_j6390911336673_1_alg».proof.Defs
import proofs.«151793_j6390911336673_1_alg».proof.Proof.Gen.Kernel
import proofs.«151793_j6390911336673_1_alg».proof.Proof.Gen.Kernel.Frame
import proofs.«151793_j6390911336673_1_alg».proof.Proof.Gen.KernelIdeal
import proofs.«151793_j6390911336673_1_alg».proof.Proof.Gen.KernelIdeal.Frame
import proofs.«151793_j6390911336673_1_alg».proof.Proof.Gen.ReferenceIdeal
import proofs.«151793_j6390911336673_1_alg».proof.Proof.Gen.Pre_finite_inputs
import proofs.«151793_j6390911336673_1_alg».proof.Proof.KernelRun
import proofs.«151793_j6390911336673_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HandRun.run m ρ)

/-- The ideal pass rewrote nothing. -/
theorem preserves : Cert.preserves_Kernel_KernelIdeal := trivial

/-- From memories agreeing on the arguments both idealized programs end with their result buffer at ONE function of
    the arguments. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.HandRun.run m' ρ')
  obtain ⟨a0, a1, a2, a3, a4⟩ := hagree c
  rw [a0, a1, a2, a3, a4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
